-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  reducesTo_S_S_d : S_.ReducesTo [] S_

variable [Facts]

def fn_part1 {F : FTy → Type} [FloatOps F] (main_arg4 : FVec F S_ .f32) (main_arg5 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg4
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_v22 : FVec F S_ .f32 := Host.absf main_arg5
  let main_cst_8 : FVec F S_ .f32 := constant S_ .f32 0x7F800000#32
  let main_v23 : IVec S_ 1 := cmpf .olt main_v22 main_cst_8
  let main_c_9 : IVec S_ 1 := constantI S_ 1 1#1
  let main_v24 : IVec S_ 1 := (fun x v => Host.reduce IntOp.andi x v reducesTo_S_S_d h_S_) main_v23 main_c_9
  let main_v25 : IVec S_ 1 := andi main_v21 main_v24
  main_v25

def fn {F : FTy → Type} [FloatOps F] (main_arg0 : FVec F S16777216 .f32) (main_arg1 : FVec F S16777216 .f32) (main_arg2 : FVec F S16777216 .f32) (main_arg3 : FVec F S_ .f32) (main_arg4 : FVec F S_ .f32) (main_arg5 : FVec F S_ .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_arg5 main_v13 main_v15 main_c_5
-- ==== Kernel.lean ====
abbrev S16777216 : Shape := ⟨1, ![16777216]⟩
abbrev S_ : Shape := ⟨0, ![]⟩
abbrev S131072x128 : Shape := ⟨2, ![131072, 128]⟩
abbrev S1x1 : Shape := ⟨2, ![1, 1]⟩
abbrev S8192x128 : Shape := ⟨2, ![8192, 128]⟩
abbrev S1x8192x128 : Shape := ⟨3, ![1, 8192, 128]⟩
abbrev S1 : Shape := ⟨1, ![1]⟩
abbrev S1x1x1 : Shape := ⟨3, ![1, 1, 1]⟩

abbrev nBuf : Space → Nat
  | .hbm => 22
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .f32 = 32 ∨ (Rect.block (s := S131072x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16777216, .f32⟩
  | .hbm, ⟨7, _⟩ => ⟨S16777216, .f32⟩
  | .hbm, ⟨8, _⟩ => ⟨S16777216, .f32⟩
  | .hbm, ⟨9, _⟩ => ⟨S16777216, .f32⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16777216, .f32⟩
  | .hbm, ⟨33, _⟩ => ⟨S16777216, .f32⟩
  | .hbm, ⟨34, _⟩ => ⟨S16777216, .f32⟩
  | .hbm, ⟨35, _⟩ => ⟨S16777216, .f32⟩
  | .hbm, ⟨36, _⟩ => ⟨S16777216, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.LossAlgebra.lean ====
/-
  The arithmetic of the Gaussian loss over the extended reals.

  For weights x, means μ and widths σ (one entry per index i), write
    ℓ(x, μ, σ) = (-log σ - C) - (h·z)·z,   z = (x - μ)/σ
  for the log-density of a Gaussian (C the constant ½·log 2π as a float, h the float one half). The loss is
    Σᵢ ℓ(xᵢ, μᵢ, σᵢ) - Σᵢ ℓ(xᵢ, 0, 1) - ℓ(y, μp, σp).
  Since log 1 = 0 and x/1 = x, the prior's entry ℓ(xᵢ, 0, 1) is the REAL number -C - h·xᵢ² whenever xᵢ is real,
  so the two sums combine entry by entry: the constants cancel and what remains is
    Σᵢ ((0 - log σᵢ) - (h·zᵢ)·zᵢ + (h·xᵢ)·xᵢ) - ℓ(y, μp, σp).
  Only the finiteness of x is used: -log σᵢ and zᵢ may be infinite, and the sums are sums in the commutative
  monoid of extended reals (where ⊤ + ⊥ = ⊥), which re-associate freely; only the REAL summands are moved across
  the difference of the two sums.
-/
import Idealize.ShloMosaic.PureOps.Ideal.Laws

noncomputable section

namespace Cert.LossAlgebra

open Idealize.ShloMosaic

/-- The float one half. -/
abbrev half : EReal := Ideal.ofBits .f32 0x3F000000#32
/-- The float nearest ½·log 2π. -/
abbrev lc : EReal := Ideal.ofBits .f32 0x3F6B3F8E#32

/-- One half denotes the real 1/2. -/
theorem half_eq : half = ((1 / 2 : ℝ) : EReal) := by
  simp [half, Ideal.ofBits, Ideal.ieee, -EReal.coe_mul]; norm_num

/-- The constant is a real number (which one does not matter: it cancels). -/
theorem lc_real : ∃ c : ℝ, lc = (c : EReal) := by
  refine ⟨(2 ^ 23 + 7028622 : ℕ) * (2 : ℝ) ^ ((126 : ℤ) - (2 ^ (8 - 1) - 1) - 23), ?_⟩
  simp [lc, Ideal.ofBits, Ideal.ieee, -EReal.coe_mul]

/-- The float 1.0 denotes 1. -/
theorem one_eq : Ideal.ofBits .f32 0x3F800000#32 = 1 := by
  simp [Ideal.ofBits, Ideal.ieee, -EReal.coe_mul]; norm_num

/-- The pattern of +∞ denotes ⊤. -/
theorem inf_eq : Ideal.ofBits .f32 0x7F800000#32 = ⊤ := by
  simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- h·z·z, associated as both programs compute it. -/
def quad (z : EReal) : EReal := half * z * z

/-- A Gaussian's log-density at x, as both programs compute it for the prediction. -/
def logp (x μ σ : EReal) : EReal := (-(Ideal.log σ) - lc) - quad (Ideal.div (x - μ) σ)

/-- The summand of the fused pass: -log σ - h·z² + h·x². -/
def term (x μ σ : EReal) : EReal := ((0 - Ideal.log σ) - quad (Ideal.div (x - μ) σ)) + quad x

/-- The prior's summand: the log-density at mean 0 and width 1, the constants spelled as the program spells them. -/
def prior (x : EReal) : EReal :=
  (-(Ideal.log (Ideal.ofBits .f32 0x3F800000#32)) - lc)
    - quad (Ideal.div (x - Ideal.ofBits .f32 0x00000000#32) (Ideal.ofBits .f32 0x3F800000#32))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The prior's summand at a real x is the real number -c - (1/2)·x·x. -/
theorem prior_coe (c r : ℝ) (hc : lc = (c : EReal)) : prior (r : EReal) = ((-c - 1 / 2 * r * r : ℝ) : EReal) := by
  unfold prior quad
  rw [one_eq, Ideal.ofBits_zero_f32, sub_zero, hc, half_eq]
  have h1 : Ideal.log (1 : EReal) = 0 := by
    rw [← EReal.coe_one, Ideal.log_coe]; simp
  have h2 : Ideal.div (r : EReal) 1 = (r : EReal) := by
    rw [← EReal.coe_one, Ideal.div_coe one_ne_zero]; simp
  rw [h1, h2, neg_zero, zero_sub]
  norm_cast

/-- The fused summand at a real x: the variational summand without its constant, plus the real (1/2)·x·x. -/
theorem term_coe (r : ℝ) (μ σ : EReal) :
    term (r : EReal) μ σ = ((0 - Ideal.log σ) - quad (Ideal.div ((r : EReal) - μ) σ)) + ((1 / 2 * r * r : ℝ) : EReal) := by
  unfold term
  congr 1
  unfold quad
  rw [half_eq]
  norm_cast

/-- The variational summand: the same, plus the real -c. -/
theorem logp_split (c : ℝ) (hc : lc = (c : EReal)) (x μ σ : EReal) :
    logp x μ σ = ((0 - Ideal.log σ) - quad (Ideal.div (x - μ) σ)) + ((-c : ℝ) : EReal) := by
  unfold logp
  rw [hc, zero_sub, EReal.coe_neg]
  simp only [sub_eq_add_neg]
  exact add_right_comm _ _ _

/-- The sums combined: with real rᵢ, the difference of Σ(sᵢ - c) and the real Σ(-c - ½rᵢ²) is Σ(sᵢ + ½rᵢ²). -/
theorem sums_combine {ι : Type} [Fintype ι] (s : ι → EReal) (r : ι → ℝ) (c : ℝ) :
    ((0 : EReal) + ∑ i, (s i + ((-c : ℝ) : EReal))) - ((0 : EReal) + ∑ i, ((-c - 1 / 2 * r i * r i : ℝ) : EReal))
      = ∑ i, (s i + ((1 / 2 * r i * r i : ℝ) : EReal)) := by
  rw [zero_add, zero_add, Finset.sum_add_distrib, Finset.sum_add_distrib, ← coe_sum, ← coe_sum, ← coe_sum,
    sub_eq_add_neg, ← EReal.coe_neg, add_assoc, ← EReal.coe_add]
  congr 2
  rw [Finset.sum_sub_distrib]
  ring

/-- THE LAW that joins the two programs: for real weights, the reference's three-part loss is the fused sum less
    the prediction's log-density. -/
theorem loss_eq {ι : Type} [Fintype ι] (x μ σ : ι → EReal) (hx : ∀ i, ∃ r : ℝ, x i = (r : EReal)) (μp σp y : EReal) :
    (((0 : EReal) + ∑ i, logp (x i) (μ i) (σ i)) - ((0 : EReal) + ∑ i, prior (x i))) - logp y μp σp
      = (∑ i, term (x i) (μ i) (σ i)) - logp y μp σp := by
  obtain ⟨c, hc⟩ := lc_real
  choose r hr using hx
  congr 1
  have e1 : ∀ i, logp (x i) (μ i) (σ i)
      = ((0 - Ideal.log (σ i)) - quad (Ideal.div (x i - μ i) (σ i))) + ((-c : ℝ) : EReal) := fun i => logp_split c hc _ _ _
  have e2 : ∀ i, prior (x i) = ((-c - 1 / 2 * r i * r i : ℝ) : EReal) := fun i => by rw [hr i]; exact prior_coe c (r i) hc
  have e3 : ∀ i, term (x i) (μ i) (σ i)
      = ((0 - Ideal.log (σ i)) - quad (Ideal.div (x i - μ i) (σ i))) + ((1 / 2 * r i * r i : ℝ) : EReal) := fun i => by
    rw [hr i]; exact term_coe (r i) _ _
  simp only [e1, e2, e3]
  exact sums_combine _ r c

end Cert.LossAlgebra

end
-- ==== Proof.PointValue.lean ====
/-
  One grid point of the fused pass. The kernel's body, at a point, loads the point's block of each of the three
  arrays, forms the summand entry by entry, sums the block's entries, and adds that block sum to the one running
  total the output holds; at the first point it first stores zero there. So the first point leaves 0 + (its block
  sum) and every later point (what the point before left) + (its block sum). At the extended reals the block sum
  is the sum over the block's index set of -log σ - (h·z)·z + (h·x)·x, z = (x - μ)/σ.
-/
import proofs.«137174_j54142357733402_1_alg».proof.Proof.Gen.KernelIdeal.Frame
import proofs.«137174_j54142357733402_1_alg».proof.Proof.LossAlgebra
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.PointValue

open Cert.KernelIdeal Cert.KernelIdeal.Gen

variable {F : FTy → Type} [FloatOps F]

theorem hz : (![0, 0] : Fin 2 → Nat) = fun _ => 0 := funext fun a => by fin_cases a <;> rfl

/-- A later point: the body's one store writes (the running total it found) + (the block sum), as the payload of the
    blocks it loaded. -/
theorem later_point (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x128 .f32) (h3 : a3.IsWhole)
    (a4 : Memref sig .tc .vmem S1x1 .f32) (h4 : a4.IsWhole) (hc : ¬cond0_0 i)
    (x0 x1 x2 : Vec F S8192x128 .f32) (xo : Vec F S1x1 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  rw [View.canon_unit_zero hz]
  simp only [View.readAt_eq_ld, h1.read_unread, h2.read_unread, h3.read_unread, h4.read_unread,
    View.ld_unit_zero (S := S8192x128) hz, View.ld_unit_zero (S := S1x1) hz]

/-- The first point: the body stores the zero, reads it back, and stores zero + (the block sum). -/
theorem first_point (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x128 .f32) (h3 : a3.IsWhole)
    (a4 : Memref sig .tc .vmem S1x1 .f32) (h4 : a4.IsWhole) (hc : cond0_0 i)
    (x0 x1 x2 : Vec F S8192x128 .f32) :
    out0_A_3 c i a1 h1 a2 h2 a3 h3 a4 h4 hc x0 x1 x2 = k0_pay2 x0 x1 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S8192x128) hz]

/-- The block sum: the fused summand summed over one block's index set. -/
def blockSum (x0 x1 x2 : Vec Ideal S8192x128 .f32) : EReal :=
  ∑ j : S8192x128.Idx, Cert.LossAlgebra.term (x0 j) (x1 j) (x2 j)

/-- The stored zero is 0. -/
theorem zero_apply (i : S1x1.Idx) : k0_pay1 (F := Ideal) i = 0 := by
  show Ideal.ofBits .f32 0x00000000#32 = 0
  exact Ideal.ofBits_zero_f32

/-- The payload at the extended reals: what was found, plus the block sum. -/
theorem pay_apply (x0 x1 x2 : Vec Ideal S8192x128 .f32) (xo : Vec Ideal S1x1 .f32) (i : S1x1.Idx) :
    k0_pay2 (F := Ideal) x0 x1 x2 xo i = xo i + blockSum x0 x1 x2 := by
  unfold k0_pay2
  simp only [shapeCast_self]
  rw [ValueIdx.addf_apply]
  congr 1
  rw [ValueIdx.broadcast_apply]
  unfold extractAt shapeCast
  refine (Ideal.multiReduction_add_total (s := S1x8192x128) (t := S1) _ 0x00000000#32 reduces_S1x8192x128_S1
    (fun b => by fin_cases b; rfl) _ _ _).trans ?_
  refine (Equiv.sum_comp (Shape.reshapeEquiv shapeCasts_S8192x128_S1x8192x128) _).trans (Finset.sum_congr rfl fun j _ => ?_)
  show (Ideal.ofBits .f32 0x00000000#32 - Ideal.log (x2 j))
      - (Ideal.ofBits .f32 0x3F000000#32 * Ideal.div (x0 j - x1 j) (x2 j)) * Ideal.div (x0 j - x1 j) (x2 j)
      + (Ideal.ofBits .f32 0x3F000000#32 * x0 j) * x0 j = _
  rw [Ideal.ofBits_zero_f32]
  rfl

end Cert.KernelIdeal.PointValue

end
-- ==== Proof.RunningTotal.lean ====
/-
  The running total across the grid. The output's one entry is carried from point to point: after point n it holds
  the sum of the block sums of points 0 … n (by induction on the point: the first point leaves 0 + its block sum,
  a later point what it found + its block sum). It is written back to the result array once, after the last point,
  so the array ends holding the sum over all sixteen points; the operations after the region subtract the
  prediction's log-density from it.
-/
import proofs.«137174_j54142357733402_1_alg».proof.Proof.PointValue
import Idealize.ShloMosaic.Lib.StableHlo.Run

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.KernelIdeal.PointValue

variable (m : (ℓ : Loc nD τ sig) → Buf (Elt Ideal) ℓ) (ρ : Dev nD → PrngReg)

/-- The block sum of point k of the grid (0 past the grid's end). -/
def pointSum (c : Dev nD) (k : ℕ) : EReal :=
  if h : k < cfg0.N then blockSum (iblk m c 0 ⟨k, h⟩) (iblk m c 1 ⟨k, h⟩) (iblk m c 2 ⟨k, h⟩) else 0

/-- The sum of the block sums of points 0 … n. -/
def running (c : Dev nD) (n : ℕ) : EReal := ∑ k ∈ Finset.range (n + 1), pointSum m c k

/-- What the output's entry holds after point n is the running total — by induction on the point. -/
theorem outsAt_eq (c : Dev nD) : ∀ (n : ℕ) (h : n < cfg0.N) (i : S1x1.Idx), outsAt0 m c n h i = running m c n
  | 0, h, i => by
    refine (congrFun (outsAt0_A m c ⟨0, h⟩ rfl) i).trans ?_
    rw [first_point, pay_apply, zero_apply, zero_add]
    unfold running pointSum
    rw [Finset.sum_range_one, dif_pos h]
  | n + 1, h, i => by
    have hN : cfg0.N = 16 := N_0
    have hB : ¬(⟨n + 1, h⟩ : Fin cfg0.N).val % 16 = 0 := by dsimp only; omega
    refine (congrFun (outsAt0_B m c ⟨n + 1, h⟩ hB) i).trans ?_
    rw [later_point, pay_apply]
    show outsAt0 m c n _ i + _ = _
    rw [outsAt_eq c n]
    unfold running
    rw [Finset.sum_range_succ _ (n + 1)]
    congr 1
    unfold pointSum
    rw [dif_pos h]

/-- The result array's contents at the end: the total over the sixteen points, in its one entry. -/
def result (c : Dev nD) : Buf (Elt Ideal) ((c : Thread nD τ).loc main_v3) := fun _ => running m c 15

/-- The one write-back, after point 15, writes it. -/
theorem flushed_eq (c : Dev nD) (t : Fin cfg0.N) (hf : (cfg0.win 3).flush t = true) :
    (dats m 0 c).flushed 3 t = ((cfg0.win 3).blk t).view.read (Elt Ideal) (result m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3]
  have e : outsAt0 m c t0_15.val t0_15.isLt = result m c := funext fun i => outsAt_eq m c _ _ i
  rw [e]
  have hz' : (fun a => win0_3.index t0_15 a * main_v3.ty.shape.size a) = fun _ => 0 := funext fun a => by fin_cases a <;> decide
  exact (Memref.read_access_unit_zero (Elt Ideal) main_v3 hz' (fun a => by rw [congrFun hz' a]; simp) (result m c)).symm

/-- So the result array ends holding the total. -/
theorem final_total (c : Dev nD) : (dats m 0 c).arrAt 3 cfg0.N = result m c :=
  (dats m 0 c).arrAt_eq_of_cover 3 (result m c) (flushed_eq m c) fun i =>
    ⟨t0_15, (flush0_3 t0_15).mpr rfl, by
      show i ∈ ((View.whole main_v3).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

/-- The operations after the region: the result is the total less the prediction's log-density. -/
theorem tail_eq (c : Dev nD) :
    Pipeline.afterTail₀ cfgs (dats m) 0 (V0 m) [hostOps1] c main_v13
      = fun _ => running m c 15 - Cert.LossAlgebra.logp (m ((c : Thread nD τ).loc main_arg5) ValueIdx.ix0)
          (m ((c : Thread nD τ).loc main_arg3) ValueIdx.ix0) (m ((c : Thread nD τ).loc main_arg4) ValueIdx.ix0) := by
  unfold Pipeline.afterTail₀
  show StableHlo.after hostOps1 _ (Proc.devRef .tc main_v13) = _
  after_results
  have eA : Pipeline.withArrays (cfgs 0).spec c (V0 m c) (fun w => (dats m 0 c).arrAt w (cfgs 0).N)
      (Proc.devRef .tc main_v3) = result m c :=
    (Pipeline.withArrays_arr spec0 launch0.win.arr_inj c _ _ 3).trans (final_total m c)
  have e3 : Pipeline.withArrays (cfgs 0).spec c (V0 m c) (fun w => (dats m 0 c).arrAt w (cfgs 0).N)
      (Proc.devRef .tc main_arg3) = m ((c : Thread nD τ).loc main_arg3) :=
    (Pipeline.withArrays_of_ne _ c (V0 m c) _ main_arg3
      (by exact (by decide : ∀ w, Pipeline.arrRef spec0 w ≠ main_arg3))).trans (V_main_arg3 m c)
  have e4 : Pipeline.withArrays (cfgs 0).spec c (V0 m c) (fun w => (dats m 0 c).arrAt w (cfgs 0).N)
      (Proc.devRef .tc main_arg4) = m ((c : Thread nD τ).loc main_arg4) :=
    (Pipeline.withArrays_of_ne _ c (V0 m c) _ main_arg4
      (by exact (by decide : ∀ w, Pipeline.arrRef spec0 w ≠ main_arg4))).trans (V_main_arg4 m c)
  have e5 : Pipeline.withArrays (cfgs 0).spec c (V0 m c) (fun w => (dats m 0 c).arrAt w (cfgs 0).N)
      (Proc.devRef .tc main_arg5) = m ((c : Thread nD τ).loc main_arg5) :=
    (Pipeline.withArrays_of_ne _ c (V0 m c) _ main_arg5
      (by exact (by decide : ∀ w, Pipeline.arrRef spec0 w ≠ main_arg5))).trans (V_main_arg5 m c)
  rw [eA, e3, e4, e5]
  funext i
  obtain rfl := ValueIdx.eq_ix0 i
  rfl

end Cert.KernelIdeal.Total

end
-- ==== Proof.LibBlockFlat.lean ====
/-
  A flat array of 16·8192·128 entries seen as sixteen blocks of 8192 rows of 128 lanes: entry (r, l) of block t is
  entry (8192·t + r)·128 + l of the flat array. The correspondence is a bijection between (block, row, lane) and the
  flat index (division with remainder by 128 and by 8192), so a sum over the flat array is the sum over the blocks of
  the sums over each block — in any commutative monoid.
-/
import Idealize.ShloMosaic.Lib.ValueIdx

noncomputable section

namespace Cert.LibBlockFlat

open Idealize.ShloMosaic Idealize.ShloMosaic.ValueIdx

/-- One block: 8192 rows of 128 lanes. -/
abbrev Blk : Shape := ⟨2, ![8192, 128]⟩
/-- The flat array. -/
abbrev Flat : Shape := ⟨1, ![16777216]⟩

/-- The flat position of entry (r, l) of block t. -/
def flat (t : Fin 16) (j : Blk.Idx) : Flat.Idx :=
  ix1 ⟨(t.val * 8192 + (j 0).val) * 128 + (j 1).val, by
    have h0 : (j 0 : Nat) < 8192 := (j 0).isLt
    have h1 : (j 1 : Nat) < 128 := (j 1).isLt
    have ht := t.isLt
    omega⟩

theorem flat_val (t : Fin 16) (j : Blk.Idx) : (flat t j 0 : Nat) = (t.val * 8192 + (j 0).val) * 128 + (j 1).val := rfl

/-- (block, row, lane) ↔ flat position. -/
def flatEquiv : Fin 16 × Blk.Idx ≃ Flat.Idx where
  toFun p := flat p.1 p.2
  invFun i :=
    (⟨(i 0 : Nat) / 1048576, by have hi : (i 0 : Nat) < 16777216 := (i 0).isLt; omega⟩,
     ix2 ⟨((i 0 : Nat) / 128) % 8192, by omega⟩ ⟨(i 0 : Nat) % 128, by omega⟩)
  left_inv := fun ⟨t, j⟩ => by
    have h0 : (j 0 : Nat) < 8192 := (j 0).isLt
    have h1 : (j 1 : Nat) < 128 := (j 1).isLt
    have ht := t.isLt
    refine Prod.ext (Fin.ext ?_) (funext fun a => ?_)
    · show ((t.val * 8192 + (j 0 : Nat)) * 128 + (j 1 : Nat)) / 1048576 = t.val
      omega
    · match a with
      | ⟨0, _⟩ =>
        refine Fin.ext ?_
        show (((t.val * 8192 + (j 0 : Nat)) * 128 + (j 1 : Nat)) / 128) % 8192 = (j 0 : Nat)
        omega
      | ⟨1, _⟩ =>
        refine Fin.ext ?_
        show ((t.val * 8192 + (j 0 : Nat)) * 128 + (j 1 : Nat)) % 128 = (j 1 : Nat)
        omega
  right_inv := fun i => by
    have hi : (i 0 : Nat) < 16777216 := (i 0).isLt
    funext a
    match a with
    | ⟨0, _⟩ =>
      refine Fin.ext ?_
      show ((i 0 : Nat) / 1048576 * 8192 + ((i 0 : Nat) / 128) % 8192) * 128 + (i 0 : Nat) % 128 = (i 0 : Nat)
      omega

/-- A sum over the flat array is the sum over the blocks of the sums over each block. -/
theorem sum_blocks {M : Type} [AddCommMonoid M] (g : Flat.Idx → M) :
    ∑ t : Fin 16, ∑ j : Blk.Idx, g (flat t j) = ∑ i : Flat.Idx, g i := by
  rw [← Fintype.sum_prod_type' (f := fun t j => g (flat t j))]
  exact Equiv.sum_comp flatEquiv g

end Cert.LibBlockFlat

end
-- ==== Proof.KernelValue.lean ====
/-
  The fused pass as one sum over the flat arrays. Each input window stages a row-major reshape of a flat argument
  to 131072 rows of 128 lanes, in sixteen blocks of 8192 rows: entry (r, l) of block t is entry
  (8192·t + r)·128 + l of the argument. So the block sum of point t is the sum of the summand over the flat
  positions of block t, the total over the sixteen points is the sum over every flat position, and the kernel's
  result is that sum less the prediction's log-density.
-/
import proofs.«137174_j54142357733402_1_alg».proof.Proof.RunningTotal
import proofs.«137174_j54142357733402_1_alg».proof.Proof.LibBlockFlat

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.PointValue Cert.KernelIdeal.Total Cert.LibBlockFlat

variable (m : (ℓ : Loc nD τ sig) → Buf (Elt Ideal) ℓ) (ρ : Dev nD → PrngReg)

/-- The arrays the windows stage are the reshapes of the three flat arguments. -/
theorem staged0 (c : Dev nD) : (V m c main_v0 : S131072x128.Idx → EReal)
    = shapeCast S131072x128 (m ((c : Thread nD τ).loc main_arg0)) shapeCasts_S16777216_S131072x128 := by
  show StableHlo.after hostOps0 (fun b => m (c, b)) (Proc.devRef .tc main_v0) = _
  after_results
  rfl
theorem staged1 (c : Dev nD) : (V m c main_v1 : S131072x128.Idx → EReal)
    = shapeCast S131072x128 (m ((c : Thread nD τ).loc main_arg1)) shapeCasts_S16777216_S131072x128 := by
  show StableHlo.after hostOps0 (fun b => m (c, b)) (Proc.devRef .tc main_v1) = _
  after_results
  rfl
theorem staged2 (c : Dev nD) : (V m c main_v2 : S131072x128.Idx → EReal)
    = shapeCast S131072x128 (m ((c : Thread nD τ).loc main_arg2)) shapeCasts_S16777216_S131072x128 := by
  show StableHlo.after hostOps0 (fun b => m (c, b)) (Proc.devRef .tc main_v2) = _
  after_results
  rfl

/-- Each window's block index at point t is (t, 0). -/
theorem block_index : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0))

/-- A point of the grid as one of sixteen. -/
abbrev pt (t : Fin cfg0.N) : Fin 16 := ⟨t.val, lt_of_lt_of_eq t.isLt N_0⟩

/-- Reading a reshaped flat array at entry (r, l) of block t reads the flat array at the block's flat position. -/
theorem reshape_block (x : S16777216.Idx → EReal) (t : Fin 16) (j : S8192x128.Idx) (k : S131072x128.Idx)
    (h0 : (k 0 : Nat) = t.val * 8192 + (j 0 : Nat)) (h1 : (k 1 : Nat) = (j 1 : Nat)) :
    shapeCast S131072x128 x shapeCasts_S16777216_S131072x128 k = x (flat t j) := by
  refine shapeCast_apply x _ k (flat t j) ?_
  rw [Shape.rowMajor_val_one, Shape.rowMajor_val_two, flat_val, h0, h1]
  rfl

theorem block0 (c : Dev nD) (t : Fin cfg0.N) (j : S8192x128.Idx) :
    iblk m c 0 t j = m ((c : Thread nD τ).loc main_arg0) (flat (pt t) j) := by
  unfold iblk
  rw [View.read_apply]
  show V m c main_v0 _ = _
  rw [staged0]
  refine reshape_block _ (pt t) j _ ?_ ?_
  · show win0_0.index t 0 * 8192 + 1 * (j 0 : Nat) = t.val * 8192 + (j 0 : Nat)
    rw [(block_index t).1.1]; omega
  · show win0_0.index t 1 * 128 + 1 * (j 1 : Nat) = (j 1 : Nat)
    rw [(block_index t).1.2]; omega

theorem block1 (c : Dev nD) (t : Fin cfg0.N) (j : S8192x128.Idx) :
    iblk m c 1 t j = m ((c : Thread nD τ).loc main_arg1) (flat (pt t) j) := by
  unfold iblk
  rw [View.read_apply]
  show V m c main_v1 _ = _
  rw [staged1]
  refine reshape_block _ (pt t) j _ ?_ ?_
  · show win0_1.index t 0 * 8192 + 1 * (j 0 : Nat) = t.val * 8192 + (j 0 : Nat)
    rw [(block_index t).2.1.1]; omega
  · show win0_1.index t 1 * 128 + 1 * (j 1 : Nat) = (j 1 : Nat)
    rw [(block_index t).2.1.2]; omega

theorem block2 (c : Dev nD) (t : Fin cfg0.N) (j : S8192x128.Idx) :
    iblk m c 2 t j = m ((c : Thread nD τ).loc main_arg2) (flat (pt t) j) := by
  unfold iblk
  rw [View.read_apply]
  show V m c main_v2 _ = _
  rw [staged2]
  refine reshape_block _ (pt t) j _ ?_ ?_
  · show win0_2.index t 0 * 8192 + 1 * (j 0 : Nat) = t.val * 8192 + (j 0 : Nat)
    rw [(block_index t).2.2.1]; omega
  · show win0_2.index t 1 * 128 + 1 * (j 1 : Nat) = (j 1 : Nat)
    rw [(block_index t).2.2.2]; omega

/-- The total over the sixteen points is the sum of the summand over every flat position. -/
theorem total_eq (c : Dev nD) : running m c 15
    = ∑ i : S16777216.Idx, Cert.LossAlgebra.term (m ((c : Thread nD τ).loc main_arg0) i)
        (m ((c : Thread nD τ).loc main_arg1) i) (m ((c : Thread nD τ).loc main_arg2) i) := by
  rw [← sum_blocks (fun i => Cert.LossAlgebra.term (m ((c : Thread nD τ).loc main_arg0) i)
        (m ((c : Thread nD τ).loc main_arg1) i) (m ((c : Thread nD τ).loc main_arg2) i))]
  unfold running
  rw [← Fin.sum_univ_eq_sum_range (fun k => pointSum m c k) 16]
  refine Finset.sum_congr rfl fun t _ => ?_
  have h : t.val < cfg0.N := lt_of_lt_of_eq t.isLt N_0.symm
  unfold pointSum
  rw [dif_pos h]
  unfold blockSum
  refine Finset.sum_congr rfl fun j _ => ?_
  rw [block0, block1, block2]

/-- The kernel's result, as one function of the argument arrays. -/
def value (c : Dev nD) : Buf (Elt Ideal) ((c : Thread nD τ).loc main_v13) := fun _ =>
  (∑ i : S16777216.Idx, Cert.LossAlgebra.term (m ((c : Thread nD τ).loc main_arg0) i)
      (m ((c : Thread nD τ).loc main_arg1) i) (m ((c : Thread nD τ).loc main_arg2) i))
    - Cert.LossAlgebra.logp (m ((c : Thread nD τ).loc main_arg5) ValueIdx.ix0)
        (m ((c : Thread nD τ).loc main_arg3) ValueIdx.ix0) (m ((c : Thread nD τ).loc main_arg4) ValueIdx.ix0)

/-- The run, read: the result at that function of the arguments, the arguments unchanged. -/
theorem run : θ_run defs (onTc (τ := τ) (main (F := Ideal))) ⟨m, fun _ => 0, ρ⟩ fun r => ∀ c : Dev nD,
      r.2.mem ((c.tc : Thread nD τ).loc main_v13) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v13 (Pipeline.mem_restRefs_of main_v13 (by decide) (by decide))).trans
        ((tail_eq m c).trans (by unfold value; rw [total_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.FiniteWeights.lean ====
/-
  The precondition gives real weights. "Every float input is finite" is the conjunction of six all-reductions; the
  first says |xᵢ| < +∞ at every index i of the weights, and an extended real whose absolute value is below ⊤ is a
  real number.
-/
import proofs.«137174_j54142357733402_1_alg».proof.Proof.KernelValue
import proofs.«137174_j54142357733402_1_alg».proof.Pre_finite_inputs
import Idealize.ShloMosaic.Lib.ReduceAll
import Idealize.ShloMosaic.Lib.Pipeline.Value

noncomputable section

open Idealize.ShloMosaic

namespace Cert.FiniteWeights

open Cert.Pre_finite_inputs

instance : Subsingleton S_.Idx := ⟨fun a b => funext fun d => d.elim0⟩

variable [Cert.Pre_finite_inputs.Facts]

theorem weights_real (x0 x1 x2 : FVec Ideal S16777216 .f32) (x3 x4 x5 : FVec Ideal S_ .f32)
    (h : Cert.Pre_finite_inputs.fn (F := Ideal) x0 x1 x2 x3 x4 x5 = fun _ => 1#1) (i : S16777216.Idx) :
    ∃ r : ℝ, x0 i = (r : EReal) := by
  have h0 := congrFun h ValueIdx.ix0
  dsimp only [Cert.Pre_finite_inputs.fn, Cert.Pre_finite_inputs.fn_part1] at h0
  have e := (IntOp.andi_eq_one.mp (IntOp.andi_eq_one.mp (IntOp.andi_eq_one.mp (IntOp.andi_eq_one.mp
    (IntOp.andi_eq_one.mp h0).1).1).1).1).1
  have ei := Host.reduce_andi_all _ _ _ _ _ e i
  rw [ValueIdx.cmpf_apply, broadcastInDim_apply _ _ _ i ValueIdx.ix0 (fun a => a.elim0)] at ei
  have ei' : Ideal.cmp .olt (max (x0 i) (-(x0 i))) (Ideal.ofBits .f32 0x7F800000#32) = 1#1 := ei
  rw [Cert.LossAlgebra.inf_eq] at ei'
  apply Cert.LossAlgebra.real_of_abs_lt_top
  have hb : ∀ b : Bool, BitVec.ofBool b = 1#1 → b = true := fun b => by cases b <;> decide
  exact of_decide_eq_true (hb _ ei')

end Cert.FiniteWeights

end
-- ==== Proof.RefValue.lean ====
/-
  The reference, read entry by entry. Its result is
    (0 + Σᵢ ℓ(xᵢ, μᵢ, σᵢ)) - (0 + Σᵢ ℓ(xᵢ, 0, 1)) - ℓ(y, μp, σp)
  with ℓ the Gaussian log-density (-log σ - C) - (h·z)·z, z = (x - μ)/σ: each of the two host sums is its initial
  value plus the sum of its operand over every index, the operand of the first the variational log-density entry by
  entry, of the second the prior's (mean 0 and width 1 broadcast from constants).
-/
import proofs.«137174_j54142357733402_1_alg».proof.Proof.FiniteWeights
import proofs.«137174_j54142357733402_1_alg».proof.Proof.Gen.ReferenceIdeal.Read

noncomputable section

open Idealize.ShloMosaic Idealize.ShloMosaic.TcCoe Idealize.SL.Sem

namespace Cert.ReferenceIdeal.RefValue

open Cert.ReferenceIdeal Cert.ReferenceIdeal.Gen Cert.ReferenceIdeal.Read Cert.LossAlgebra

/-- The first sum's operand at an index: the variational log-density there. -/
theorem variational_entry (x μ σ : S16777216.Idx → EReal) (j : S16777216.Idx) :
    val_main_v9 (F := Ideal) x μ σ j = logp (x j) (μ j) (σ j) := by
  simp only [val_main_v9_apply, val_main_v5_apply, val_main_v3_apply, val_main_v2_apply, val_main_v4_apply,
    val_main_cst_apply, val_main_v8_apply, val_main_v7_apply, val_main_v6_apply, val_main_cst_0_apply,
    val_main_v1_apply, val_main_v0_apply]
  simp only [Ideal.subf_def, Ideal.mulf_def, Ideal.hostDivf_def, Ideal.hostUnary_log_def, Ideal.hostNegf_def,
    Ideal.negf_def, Ideal.ofBits_def]
  rfl

/-- The second sum's operand at an index: the prior's log-density there, its mean and width the broadcast constants. -/
theorem prior_entry (x : S16777216.Idx → EReal) (j : S16777216.Idx) :
    val_main_v22 (F := Ideal) x j = prior (x j) := by
  simp only [val_main_v22_apply, val_main_v21_apply, val_main_v17_apply, val_main_v16_apply, val_main_v15_apply,
    val_main_cst_4_apply, val_main_cst_5_apply, val_main_v20_apply, val_main_v19_apply, val_main_v18_apply,
    val_main_cst_6_apply, val_main_v14_apply, val_main_v12_apply, val_main_v11_apply, val_main_cst_2_apply,
    val_main_v13_apply, val_main_cst_3_apply]
  simp only [Ideal.subf_def, Ideal.mulf_def, Ideal.hostDivf_def, Ideal.hostUnary_log_def, Ideal.hostNegf_def,
    Ideal.negf_def, Ideal.ofBits_def]
  rfl

/-- The prediction's log-density. -/
theorem prediction_entry (μp σp y : S_.Idx → EReal) (i : S_.Idx) :
    val_main_v31 (F := Ideal) μp σp y i = logp (y i) (μp i) (σp i) := rfl

/-- The first host sum: its initial value plus the variational log-densities over every index. -/
theorem variational_sum (x μ σ : S16777216.Idx → EReal) : val_main_v10 (F := Ideal) x μ σ ValueIdx.ix0
    = Ideal.ofBits .f32 0x00000000#32 + ∑ j : S16777216.Idx, logp (x j) (μ j) (σ j) := by
  rw [val_main_v10_apply]
  exact congrArg₂ (· + ·) rfl (Finset.sum_congr rfl fun j _ => variational_entry x μ σ j)

/-- The second host sum: its initial value plus the prior's log-densities over every index. -/
theorem prior_sum (x : S16777216.Idx → EReal) : val_main_v23 (F := Ideal) x ValueIdx.ix0
    = Ideal.ofBits .f32 0x00000000#32 + ∑ j : S16777216.Idx, prior (x j) := by
  rw [val_main_v23_apply]
  exact congrArg₂ (· + ·) rfl (Finset.sum_congr rfl fun j _ => prior_entry x j)

/-- The reference's result as one function of the argument arrays. -/
def three_part (x μ σ : S16777216.Idx → EReal) (μp σp y : S_.Idx → EReal) : S_.Idx → EReal := fun _ =>
  ((Ideal.ofBits .f32 0x00000000#32 + ∑ i : S16777216.Idx, logp (x i) (μ i) (σ i))
      - (Ideal.ofBits .f32 0x00000000#32 + ∑ i : S16777216.Idx, prior (x i)))
    - logp (y ValueIdx.ix0) (μp ValueIdx.ix0) (σp ValueIdx.ix0)

theorem reference_eq (x μ σ : S16777216.Idx → EReal) (μp σp y : S_.Idx → EReal) :
    val_main_v33 (F := Ideal) x μ σ μp σp y = three_part x μ σ μp σp y := by
  funext i
  obtain rfl := ValueIdx.eq_ix0 i
  rw [val_main_v33_apply, val_main_v32_apply, variational_sum, prior_sum, prediction_entry,
    Ideal.subf_def, Ideal.subf_def]
  rfl

end Cert.ReferenceIdeal.RefValue

end
-- ==== Proof.lean ====
/-
  The Gaussian loss  Σᵢ log q(wᵢ) - Σᵢ log p(wᵢ) - log p(y | prediction)  of a factorized variational posterior
  against a standard normal prior, computed two ways.

  The reference forms the two sums of log-densities separately and subtracts. The kernel makes one pass over the
  sixteen million weights: with ℓ(x, μ, σ) = -log σ - C - ½((x - μ)/σ)², the difference ℓ(x, μ, σ) - ℓ(x, 0, 1) is
  -log σ - ½((x - μ)/σ)² + ½x² (the constants cancel, log 1 = 0), which it sums block by block — sixteen blocks of
  8192 × 128 entries, each block's sum added to one running total — and the prediction's log-density is subtracted
  after the pass by the same operations as in the reference.

  Over the extended reals the two agree whenever the weights x are finite (the precondition): then each prior entry
  ℓ(xᵢ, 0, 1) is a real number and may be moved across the difference of the sums, while the possibly infinite
  entries -log σᵢ and ((xᵢ - μᵢ)/σᵢ)² are only ever re-associated inside sums (Proof/LossAlgebra.lean). The kernel's
  value is read off its frame run: what one grid point leaves (Proof/PointValue.lean), the running total by
  induction on the point and the operations after the region (Proof/RunningTotal.lean), the blocks as flat
  positions (Proof/LibBlockFlat.lean, Proof/KernelValue.lean); the reference's off its run, entry by entry
  (Proof/RefValue.lean); the weights' finiteness off the precondition (Proof/FiniteWeights.lean).
  The idealization rewrote nothing, so `preserves` is trivial; the three frames are the programs' runs.
-/
import proofs.«137174_j54142357733402_1_alg».proof.Defs
import proofs.«137174_j54142357733402_1_alg».proof.Proof.Gen.Kernel
import proofs.«137174_j54142357733402_1_alg».proof.Proof.Gen.Kernel.Skeleton
import proofs.«137174_j54142357733402_1_alg».proof.Proof.Gen.Kernel.Launch
import proofs.«137174_j54142357733402_1_alg».proof.Proof.Gen.Kernel.Points
import proofs.«137174_j54142357733402_1_alg».proof.Proof.Gen.Kernel.Frame
import proofs.«137174_j54142357733402_1_alg».proof.Proof.Gen.KernelIdeal
import proofs.«137174_j54142357733402_1_alg».proof.Proof.Gen.KernelIdeal.Skeleton
import proofs.«137174_j54142357733402_1_alg».proof.Proof.Gen.KernelIdeal.Launch
import proofs.«137174_j54142357733402_1_alg».proof.Proof.Gen.KernelIdeal.Points
import proofs.«137174_j54142357733402_1_alg».proof.Proof.Gen.KernelIdeal.Frame
import proofs.«137174_j54142357733402_1_alg».proof.Proof.Gen.ReferenceIdeal
import proofs.«137174_j54142357733402_1_alg».proof.Proof.Gen.ReferenceIdeal.Run
import proofs.«137174_j54142357733402_1_alg».proof.Proof.Gen.ReferenceIdeal.Read
import proofs.«137174_j54142357733402_1_alg».proof.Proof.Gen.Pre_finite_inputs
import proofs.«137174_j54142357733402_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel ends at (the fused sum) - ℓ(y, μp, σp) and the reference at its three-part
    loss of arguments that agree; the weights being real, these are one number. -/
theorem algebraic : Cert.algebraic_KernelIdeal_ReferenceIdeal := by
  intro m ρ m' ρ' hpre hagree
  refine ⟨fun c => Cert.KernelIdeal.Whole.value m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.reference_eq,
    (hagree c).1, (hagree c).2.1, (hagree c).2.2.1, (hagree c).2.2.2.1, (hagree c).2.2.2.2.1, (hagree c).2.2.2.2.2]
  funext i
  unfold Cert.ReferenceIdeal.RefValue.three_part Cert.KernelIdeal.Whole.value
  rw [Ideal.ofBits_zero_f32]
  exact Cert.LossAlgebra.loss_eq _ _ _ (fun j => Cert.FiniteWeights.weights_real _ _ _ _ _ _ (hpre c) j) _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
